-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S32000x512 : Shape := ⟨2, ![32000, 512]⟩
abbrev S512x1024 : Shape := ⟨2, ![512, 1024]⟩
abbrev S512 : Shape := ⟨1, ![512]⟩
abbrev S512x512 : Shape := ⟨2, ![512, 512]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S32000x512 : S_.BroadcastsInDim S32000x512 (![] : Fin 0 → Fin S32000x512.rank)
  reducesTo_S32000x512_S_d0_1 : S32000x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S32000x512 .f32) (main_arg2 : FVec F S512x1024 .f32) (main_arg3 : FVec F S512 .f32) (main_arg4 : FVec F S512x512 .f32) (main_arg5 : FVec F S512 .f32) (main_arg6 : FVec F S512 .f32) (main_arg7 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S32000x512 .f32 := Host.absf main_arg1
  let main_cst_0 : FVec F S_ .f32 := constant S_ .f32 0x7F800000#32
  let main_v5 : FVec F S32000x512 .f32 := broadcastInDim S32000x512 ![] bcast_S_S32000x512 main_cst_0
  let main_v6 : IVec S32000x512 1 := cmpf .olt main_v4 main_v5
  let main_c_1 : IVec S_ 1 := constantI S_ 1 1#1
  let main_v7 : IVec S_ 1 := (fun x v => Host.reduce IntOp.andi x v reducesTo_S32000x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4096x1024 : Shape := ⟨2, ![4096, 1024]⟩
abbrev S32000x512 : Shape := ⟨2, ![32000, 512]⟩
abbrev S512x1024 : Shape := ⟨2, ![512, 1024]⟩
abbrev S512 : Shape := ⟨1, ![512]⟩
abbrev S512x512 : Shape := ⟨2, ![512, 512]⟩
abbrev S1 : Shape := ⟨1, ![1]⟩
abbrev S1024x512 : Shape := ⟨2, ![1024, 512]⟩
abbrev S1x512 : Shape := ⟨2, ![1, 512]⟩
abbrev S1x1 : Shape := ⟨2, ![1, 1]⟩
abbrev S4096x512 : Shape := ⟨2, ![4096, 512]⟩
abbrev S4000x512 : Shape := ⟨2, ![4000, 512]⟩
abbrev S4096x32000 : Shape := ⟨2, ![4096, 32000]⟩
abbrev S3200x512 : Shape := ⟨2, ![3200, 512]⟩
abbrev S512x3200 : Shape := ⟨2, ![512, 3200]⟩

abbrev nBuf : Space → Nat
  | .hbm => 17
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S32000x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S1, .f32⟩
  | .hbm, ⟨8, _⟩ => ⟨S1024x512, .f32⟩
  | .hbm, ⟨9, _⟩ => ⟨S512x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x1, .f32⟩
  | .hbm, ⟨14, _⟩ => ⟨S4096x512, .bf16⟩
  | .hbm, ⟨15, _⟩ => ⟨S32000x512, .bf16⟩
  | .hbm, ⟨16, _⟩ => ⟨S4096x32000, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S4000x512, .f32⟩
  | .local _ .vmem, ⟨8, _⟩ => ⟨S4000x512, .f32⟩
  | .local _ .vmem, ⟨9, _⟩ => ⟨S512x512, .f32⟩
  | .local _ .vmem, ⟨10, _⟩ => ⟨S1x512, .f32⟩
  | .local _ .vmem, ⟨11, _⟩ => ⟨S4000x512, .bf16⟩
  | .local _ .vmem, ⟨12, _⟩ => ⟨S4000x512, .bf16⟩
  | .local _ .vmem, ⟨13, _⟩ => ⟨S512x512, .bf16⟩
  | .local _ .vmem, ⟨14, _⟩ => ⟨S512x512, .bf16⟩
  | .local _ .vmem, ⟨15, _⟩ => ⟨S3200x512, .bf16⟩
  | .local _ .vmem, ⟨16, _⟩ => ⟨S3200x512, .bf16⟩
  | .local _ .vmem, ⟨17, _⟩ => ⟨S1x1, .f32⟩
  | .local _ .vmem, ⟨18, _⟩ => ⟨S512x3200, .f32⟩
  | .local _ .vmem, ⟨19, _⟩ => ⟨S512x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S3200x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  transposes_S512x1024_S1024x512_1_0 : S512x1024.Transposes [1, 0] S1024x512
  transposes_S512x512_S512x512_1_0 : S512x512.Transposes [1, 0] S512x512
  shapeCasts_S512_S1x512 : S512.ShapeCasts S1x512
  shapeCasts_S1_S1x1 : S1.ShapeCasts S1x1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S4000x512_S4000x512_0_0 : ∀ a, (![0, 0] : Fin 2 → Nat) a + S4000x512.size a ≤ S4000x512.size a
  h_S4000x512 : 0 < S4000x512.numel
  shapeCasts_S512x512_S512x512 : S512x512.ShapeCasts S512x512
  broadcasts_S1x512_S4000x512 : S1x512.Broadcasts S4000x512
  packedbf16_S4000x512_S4000x512_0_0 : (Rect.unit (s := S4000x512) ![0, 0] S4000x512.size inb_S4000x512_S4000x512_0_0).PackedRows (EltTy.packing .bf16)
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x3200_S512x3200_0_0 : ∀ a, (![0, 0] : Fin 2 → Nat) a + S512x3200.size a ≤ S512x3200.size a
  h_S512x3200 : 0 < S512x3200.numel
  dot_S512x1024_S1024x512_S512x512_1_0_0_1_n_n_wf : DotDims.WF S512x1024 S1024x512 S512x512 [1] [0] [0] [1] [] []
  dot_S4000x512_S512x512_S4000x512_1_0_0_1_n_n_wf : DotDims.WF S4000x512 S512x512 S4000x512 [1] [0] [0] [1] [] []
  dot_S512x512_S3200x512_S512x3200_1_1_0_0_n_n_wf : DotDims.WF S512x512 S3200x512 S512x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .bf16 = 32 ∨ (Rect.block (s := S4096x512) S512x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x512.size a ≤ S32000x512.size a
  hwx1_0 : ∀ i : grid1.Coords, EltTy.bits .f32 = 32 ∨ (Rect.block (s := S32000x512) S4000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x512.size a ≤ S32000x512.size a
  hwx1_3 : ∀ i : grid1.Coords, EltTy.bits .bf16 = 32 ∨ (Rect.block (s := S32000x512) S4000x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .bf16 = 32 ∨ (Rect.block (s := S4096x512) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x512.size a ≤ S32000x512.size a
  hwx2_1 : ∀ i : grid2.Coords, EltTy.bits .bf16 = 32 ∨ (Rect.block (s := S32000x512) S3200x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x3200.size a ≤ S4096x32000.size a
  hwx2_3 : ∀ i : grid2.Coords, EltTy.bits .f32 = 32 ∨ (Rect.block (s := S4096x32000) S512x3200.size (cc2_transform_3 i) (hinb2_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf
def dot_S512x512_S3200x512_S512x3200_1_1_0_0_n_n : DotDims S512x512 S3200x512 S512x3200 where
  lhsContracting := [1]
  rhsContracting := [1]
  lhsNonContracting := [0]
  rhsNonContracting := [0]
  lhsBatch := []
  rhsBatch := []
  wf := dot_S512x512_S3200x512_S512x3200_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S3200x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x3200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S32000x512 : Shape := ⟨2, ![32000, 512]⟩
abbrev S512x1024 : Shape := ⟨2, ![512, 1024]⟩
abbrev S512 : Shape := ⟨1, ![512]⟩
abbrev S512x512 : Shape := ⟨2, ![512, 512]⟩
abbrev S1 : Shape := ⟨1, ![1]⟩
abbrev S1024x512 : Shape := ⟨2, ![1024, 512]⟩
abbrev S4096x512 : Shape := ⟨2, ![4096, 512]⟩
abbrev S1x512 : Shape := ⟨2, ![1, 512]⟩
abbrev S_ : Shape := ⟨0, ![]⟩
abbrev S512x32000 : Shape := ⟨2, ![512, 32000]⟩
abbrev S4096x32000 : Shape := ⟨2, ![4096, 32000]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S32000x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S1, .f32⟩
  | .hbm, ⟨8, _⟩ => ⟨S1024x512, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S512x512, .f32⟩
  | .hbm, ⟨17, _⟩ => ⟨S32000x512, .f32⟩
  | .hbm, ⟨18, _⟩ => ⟨S1x512, .f32⟩
  | .hbm, ⟨19, _⟩ => ⟨S32000x512, .f32⟩
  | .hbm, ⟨20, _⟩ => ⟨S32000x512, .f32⟩
  | .hbm, ⟨21, _⟩ => ⟨S_, .f32⟩
  | .hbm, ⟨22, _⟩ => ⟨S32000x512, .f32⟩
  | .hbm, ⟨23, _⟩ => ⟨S32000x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S512x32000, .f32⟩
  | .hbm, ⟨28, _⟩ => ⟨S4096x32000, .f32⟩
  | .hbm, ⟨29, _⟩ => ⟨S_, .f32⟩
  | .hbm, ⟨30, _⟩ => ⟨S4096x32000, .f32⟩
  | .hbm, ⟨31, _⟩ => ⟨S4096x32000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  transposes_S512x512_S512x512_1_0 : S512x512.Transposes [1, 0] S512x512
  bcast_S1x512_S32000x512_0_1 : S1x512.BroadcastsInDim S32000x512 (![0, 1] : Fin 2 → Fin S32000x512.rank)
  bcast_S_S32000x512 : S_.BroadcastsInDim S32000x512 (![] : Fin 0 → Fin S32000x512.rank)
  transposes_S32000x512_S512x32000_1_0 : S32000x512.Transposes [1, 0] S512x32000
  shapeCasts_S1_S_ : S1.ShapeCasts S_
  bcast_S_S4096x32000 : S_.BroadcastsInDim S4096x32000 (![] : Fin 0 → Fin S4096x32000.rank)
  dot_S4096x1024_S1024x512_S4096x512_1_0_0_1_n_n_wf : DotDims.WF S4096x1024 S1024x512 S4096x512 [1] [0] [0] [1] [] []
  dot_S32000x512_S512x512_S32000x512_1_0_0_1_n_n_wf : DotDims.WF S32000x512 S512x512 S32000x512 [1] [0] [0] [1] [] []
  dot_S4096x512_S512x32000_S4096x32000_1_0_0_1_n_n_wf : DotDims.WF S4096x512 S512x32000 S4096x32000 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S32000x512_S512x512_S32000x512_1_0_0_1_n_n : DotDims S32000x512 S512x512 S32000x512 where
  lhsContracting := [1]
  rhsContracting := [0]
  lhsNonContracting := [0]
  rhsNonContracting := [1]
  lhsBatch := []
  rhsBatch := []
  wf := dot_S32000x512_S512x512_S32000x512_1_0_0_1_n_n_wf
def dot_S4096x512_S512x32000_S4096x32000_1_0_0_1_n_n : DotDims S4096x512 S512x32000 S4096x32000 where
  lhsContracting := [1]
  rhsContracting := [0]
  lhsNonContracting := [0]
  rhsNonContracting := [1]
  lhsBatch := []
  rhsBatch := []
  wf := dot_S4096x512_S512x32000_S4096x32000_1_0_0_1_n_n_wf

class Facts : Prop extends Facts₀ where

variable [Facts]
-- ==== Proof.KernelRun.lean ====
/-
  The idealized kernel program's run with its RESULT array named.

  The program is one stretch of host operations (two transposes and four reshapes of the parameters) followed by three
  kernel regions entered one after another. Its run goes through four boundaries; at the last one every unscoped
  buffer of the TensorCore holds the contents `W4` — the fold of the host stretch and of the three regions' write-backs
  over the launch memory. The generated frame reads only the argument arrays off that last boundary; here the same
  launch is read at the result buffer too: after the run the result array is `W4` at the result's reference,
  and the arguments are as launched.
-/
import proofs.«114637_j43250320670761_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents `W4` at the result's reference, and every argument array ends as launched. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.Spec.lean ====
/-
  What the program computes, as functions of whole arrays at the ideal instance.

  Three stages. With h : [4096, 1024], l : [32000, 512], the two weight matrices given ALREADY TRANSPOSED
  (wh : [1024, 512], wl : [512, 512]), the biases and the scale as one-row matrices (bh, w, bl : [1, 512]) and the
  offset as a one-entry matrix (b : [1, 1]):
  * `hidden` (n, j) = max (∑ k, h (n, k) · wh (k, j) + bh (0, j)) 0 · w (0, j)      — a [4096, 512] array;
  * `label`  (m, j) = max (∑ k, l (m, k) · wl (k, j) + bl (0, j)) 0                — a [32000, 512] array;
  * `scores` (n, m) = ∑ j, ha (n, j) · la (m, j) + b (0, 0)                         — a [4096, 32000] array,
    of any two arrays ha : [4096, 512], la : [32000, 512].
  The zero is the f32 zero word read at the ideal instance; it is never evaluated.
-/
import Idealize.ShloMosaic.PureOps.Ideal
import Idealize.ShloMosaic.Lib.ValueIdx

noncomputable section

namespace Cert.Gile

open Idealize.ShloMosaic Idealize.ShloMosaic.ValueIdx

/-- The first stage at row n and column j. -/
def hiddenAt (h : FVec Ideal ⟨2, ![4096, 1024]⟩ .f32) (wh : FVec Ideal ⟨2, ![1024, 512]⟩ .f32)
    (bh w : FVec Ideal ⟨2, ![1, 512]⟩ .f32) (n : Fin 4096) (j : Fin 512) : EReal :=
  max ((∑ k : Fin 1024, h (ix2 n k) * wh (ix2 k j)) + bh (ix2 (0 : Fin 1) j)) (Ideal.ofBits .f32 0x00000000#32)
    * w (ix2 (0 : Fin 1) j)

/-- The first stage as a whole array. -/
def hidden (h : FVec Ideal ⟨2, ![4096, 1024]⟩ .f32) (wh : FVec Ideal ⟨2, ![1024, 512]⟩ .f32)
    (bh w : FVec Ideal ⟨2, ![1, 512]⟩ .f32) : FVec Ideal ⟨2, ![4096, 512]⟩ .bf16 :=
  fun i => hiddenAt h wh bh w (i 0) (i 1)

/-- The second stage at row m and column j. -/
def labelAt (l : FVec Ideal ⟨2, ![32000, 512]⟩ .f32) (wl : FVec Ideal ⟨2, ![512, 512]⟩ .f32)
    (bl : FVec Ideal ⟨2, ![1, 512]⟩ .f32) (m : Fin 32000) (j : Fin 512) : EReal :=
  max ((∑ k : Fin 512, l (ix2 m k) * wl (ix2 k j)) + bl (ix2 (0 : Fin 1) j)) (Ideal.ofBits .f32 0x00000000#32)

/-- The second stage as a whole array. -/
def label (l : FVec Ideal ⟨2, ![32000, 512]⟩ .f32) (wl : FVec Ideal ⟨2, ![512, 512]⟩ .f32)
    (bl : FVec Ideal ⟨2, ![1, 512]⟩ .f32) : FVec Ideal ⟨2, ![32000, 512]⟩ .bf16 :=
  fun i => labelAt l wl bl (i 0) (i 1)

/-- The third stage at (n, m): row n of the first array against row m of the second, plus the offset. -/
def scoresAt (ha : FVec Ideal ⟨2, ![4096, 512]⟩ .bf16) (la : FVec Ideal ⟨2, ![32000, 512]⟩ .bf16)
    (b : FVec Ideal ⟨2, ![1, 1]⟩ .f32) (n : Fin 4096) (m : Fin 32000) : EReal :=
  (∑ j : Fin 512, ha (ix2 n j) * la (ix2 m j)) + b (ix2 (0 : Fin 1) (0 : Fin 1))

/-- The third stage as a whole array. -/
def scores (ha : FVec Ideal ⟨2, ![4096, 512]⟩ .bf16) (la : FVec Ideal ⟨2, ![32000, 512]⟩ .bf16)
    (b : FVec Ideal ⟨2, ![1, 1]⟩ .f32) : FVec Ideal ⟨2, ![4096, 32000]⟩ .f32 :=
  fun i => scoresAt ha la b (i 0) (i 1)

end Cert.Gile

end
-- ==== Proof.Result.lean ====
/-
  The program's result as one function of its eight argument arrays, at the ideal instance: `scores` of the first
  stage (`hidden` of h, the transpose of the first weight matrix, the first bias and the scale reshaped to rows), the
  second stage (`label` of l, the transpose of the second weight matrix, the second bias reshaped to a row) and the
  offset reshaped to a one-entry matrix.
-/
import proofs.«114637_j43250320670761_1_alg».proof.Proof.Gen.KernelIdeal
import proofs.«114637_j43250320670761_1_alg».proof.Proof.Spec

noncomputable section

namespace Cert.KernelIdeal.Named

open Cert.KernelIdeal Cert.KernelIdeal.Gen Cert.Gile Idealize.ShloMosaic

/-- The program's result as a function of the eight argument arrays. -/
def result (x0 : FVec Ideal S4096x1024 .f32) (x1 : FVec Ideal S32000x512 .f32) (x2 : FVec Ideal S512x1024 .f32)
    (x3 : FVec Ideal S512 .f32) (x4 : FVec Ideal S512x512 .f32) (x5 x6 : FVec Ideal S512 .f32) (x7 : FVec Ideal S1 .f32) :
    FVec Ideal S4096x32000 .f32 :=
  scores
    (hidden x0 (transpose S1024x512 [1, 0] x2 transposes_S512x1024_S1024x512_1_0) (shapeCast S1x512 x3 shapeCasts_S512_S1x512)
      (shapeCast S1x512 x6 shapeCasts_S512_S1x512))
    (label x1 (transpose S512x512 [1, 0] x4 transposes_S512x512_S512x512_1_0) (shapeCast S1x512 x5 shapeCasts_S512_S1x512))
    (shapeCast S1x1 x7 shapeCasts_S1_S1x1)

end Cert.KernelIdeal.Named

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.Payloads.lean ====
/-
  The three kernel bodies' stored values at an index, at the ideal instance.

  Each body loads whole blocks, multiplies two of them as matrices into a zero accumulator, adds a bias, and stores the
  result. At the ideal instance a change of float format is the identity and the matrix product is the exact sum of
  products, so at the entry (p, q) of the stored block:
  * the first body (left factor x0, right factor x1, bias row x2, scale row x3) stores
      max (∑ k, x0 (p, k) · x1 (k, q) + x2 (0, q)) 0 · x3 (0, q);
  * the second body (left factor x0, right factor x1, bias row x2) stores
      max (∑ k, x0 (p, k) · x1 (k, q) + x2 (0, q)) 0;
  * the third body (left factor x0, right factor x1 contracted along ITS SECOND axis, a one-entry offset x2) stores
      ∑ k, x0 (p, k) · x1 (q, k) + x2 (0, 0).
-/
import proofs.«114637_j43250320670761_1_alg».proof.Proof.Gen.KernelIdeal.Skeleton
import proofs.«114637_j43250320670761_1_alg».proof.Proof.LibMatmulSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Idealize.ShloMosaic.MatmulSum

/-! ## The first body -/

abbrev DA := dot_S512x1024_S1024x512_S512x512_1_0_0_1_n_n

theorem lhsA (p : Fin 512) (q : Fin 512) (k : Fin 1024) :
    DA.lhsIdx (ix2 p q) ((contrEquiv1 DA 1024 rfl rfl).symm k) = ix2 p k := by
  have hk := contrEquiv1_symm_val DA 1024 rfl rfl k
  funext a; apply Fin.ext
  match a with
  | ⟨0, _⟩ =>
    show (DA.lhsIdx (ix2 p q) _ 0).val = p.val
    unfold DotDims.lhsIdx
    rw [dif_neg (show ¬(0 : Fin S512x1024.rank) ∈ DA.lhsBatch by decide), dif_pos (show (0 : Fin S512x1024.rank) ∈ DA.lhsNonContracting by decide)]
    rfl
  | ⟨1, _⟩ => exact (DA.lhsIdx_val_of_single rfl (ix2 p q) _).trans hk

theorem rhsA (p : Fin 512) (q : Fin 512) (k : Fin 1024) :
    DA.rhsIdx (ix2 p q) ((contrEquiv1 DA 1024 rfl rfl).symm k) = ix2 k q := by
  have hk := contrEquiv1_symm_val DA 1024 rfl rfl k
  funext a; apply Fin.ext
  match a with
  | ⟨0, _⟩ => exact (DA.rhsIdx_val_of_single rfl (ix2 p q) _).trans hk
  | ⟨1, _⟩ =>
    show (DA.rhsIdx (ix2 p q) _ 1).val = q.val
    unfold DotDims.rhsIdx
    rw [dif_neg (show ¬(1 : Fin S1024x512.rank) ∈ DA.rhsBatch by decide), dif_pos (show (1 : Fin S1024x512.rank) ∈ DA.rhsNonContracting by decide)]
    rfl

/-- The first body's stored value at (p, q): the biased product, clamped below at zero, scaled by the row x3. -/
theorem payA_apply (x0 : FVec Ideal S512x1024 .f32) (x1 : FVec Ideal S1024x512 .f32) (x2 x3 : FVec Ideal S1x512 .f32)
    (p : Fin 512) (q : Fin 512) :
    k0_pay1 (F := Ideal) x0 x1 x2 x3 (ix2 p q)
      = max ((∑ k : Fin 1024, x0 (ix2 p k) * x1 (ix2 k q)) + x2 (ix2 (0 : Fin 1) q)) (Ideal.ofBits .f32 0x00000000#32)
          * x3 (ix2 (0 : Fin 1) q) := by
  unfold k0_pay1
  rw [shapeCast_self, shapeCast_self, shapeCast_self]
  show max (FloatOps.matmul (F := Ideal) DA none x0 x1 (constant S512x512 .f32 0x00000000#32) (ix2 p q)
        + broadcastTo S512x512 x2 broadcasts_S1x512_S512x512 (ix2 p q)) (Ideal.ofBits .f32 0x00000000#32)
      * broadcastTo S512x512 x3 broadcasts_S1x512_S512x512 (ix2 p q) = _
  rw [broadcastTo_1b_ab_apply, broadcastTo_1b_ab_apply,
    matmul_zero_apply_single DA none 1024 rfl rfl x0 x1 (ix2 p q) (fun k => ix2 p k) (fun k => ix2 k q)
      (fun k => lhsA p q k) (fun k => rhsA p q k)]

/-! ## The second body -/

abbrev DB := dot_S4000x512_S512x512_S4000x512_1_0_0_1_n_n

theorem lhsB (p : Fin 4000) (q : Fin 512) (k : Fin 512) :
    DB.lhsIdx (ix2 p q) ((contrEquiv1 DB 512 rfl rfl).symm k) = ix2 p k := by
  have hk := contrEquiv1_symm_val DB 512 rfl rfl k
  funext a; apply Fin.ext
  match a with
  | ⟨0, _⟩ =>
    show (DB.lhsIdx (ix2 p q) _ 0).val = p.val
    unfold DotDims.lhsIdx
    rw [dif_neg (show ¬(0 : Fin S4000x512.rank) ∈ DB.lhsBatch by decide), dif_pos (show (0 : Fin S4000x512.rank) ∈ DB.lhsNonContracting by decide)]
    rfl
  | ⟨1, _⟩ => exact (DB.lhsIdx_val_of_single rfl (ix2 p q) _).trans hk

theorem rhsB (p : Fin 4000) (q : Fin 512) (k : Fin 512) :
    DB.rhsIdx (ix2 p q) ((contrEquiv1 DB 512 rfl rfl).symm k) = ix2 k q := by
  have hk := contrEquiv1_symm_val DB 512 rfl rfl k
  funext a; apply Fin.ext
  match a with
  | ⟨0, _⟩ => exact (DB.rhsIdx_val_of_single rfl (ix2 p q) _).trans hk
  | ⟨1, _⟩ =>
    show (DB.rhsIdx (ix2 p q) _ 1).val = q.val
    unfold DotDims.rhsIdx
    rw [dif_neg (show ¬(1 : Fin S512x512.rank) ∈ DB.rhsBatch by decide), dif_pos (show (1 : Fin S512x512.rank) ∈ DB.rhsNonContracting by decide)]
    rfl

/-- The second body's stored value at (p, q): the biased product, clamped below at zero. -/
theorem payB_apply (x0 : FVec Ideal S4000x512 .f32) (x1 : FVec Ideal S512x512 .f32) (x2 : FVec Ideal S1x512 .f32)
    (p : Fin 4000) (q : Fin 512) :
    k1_pay1 (F := Ideal) x0 x1 x2 (ix2 p q)
      = max ((∑ k : Fin 512, x0 (ix2 p k) * x1 (ix2 k q)) + x2 (ix2 (0 : Fin 1) q)) (Ideal.ofBits .f32 0x00000000#32) := by
  unfold k1_pay1
  rw [shapeCast_self, shapeCast_self]
  show max (FloatOps.matmul (F := Ideal) DB none x0 x1 (constant S4000x512 .f32 0x00000000#32) (ix2 p q)
        + broadcastTo S4000x512 x2 broadcasts_S1x512_S4000x512 (ix2 p q)) (Ideal.ofBits .f32 0x00000000#32) = _
  rw [broadcastTo_1b_ab_apply,
    matmul_zero_apply_single DB none 512 rfl rfl x0 x1 (ix2 p q) (fun k => ix2 p k) (fun k => ix2 k q)
      (fun k => lhsB p q k) (fun k => rhsB p q k)]

/-! ## The third body -/

abbrev DC := dot_S512x512_S3200x512_S512x3200_1_1_0_0_n_n

theorem lhsC (p : Fin 512) (q : Fin 3200) (k : Fin 512) :
    DC.lhsIdx (ix2 p q) ((contrEquiv1 DC 512 rfl rfl).symm k) = ix2 p k := by
  have hk := contrEquiv1_symm_val DC 512 rfl rfl k
  funext a; apply Fin.ext
  match a with
  | ⟨0, _⟩ =>
    show (DC.lhsIdx (ix2 p q) _ 0).val = p.val
    unfold DotDims.lhsIdx
    rw [dif_neg (show ¬(0 : Fin S512x512.rank) ∈ DC.lhsBatch by decide), dif_pos (show (0 : Fin S512x512.rank) ∈ DC.lhsNonContracting by decide)]
    rfl
  | ⟨1, _⟩ => exact (DC.lhsIdx_val_of_single rfl (ix2 p q) _).trans hk

theorem rhsC (p : Fin 512) (q : Fin 3200) (k : Fin 512) :
    DC.rhsIdx (ix2 p q) ((contrEquiv1 DC 512 rfl rfl).symm k) = ix2 q k := by
  have hk := contrEquiv1_symm_val DC 512 rfl rfl k
  funext a; apply Fin.ext
  match a with
  | ⟨0, _⟩ =>
    show (DC.rhsIdx (ix2 p q) _ 0).val = q.val
    unfold DotDims.rhsIdx
    rw [dif_neg (show ¬(0 : Fin S3200x512.rank) ∈ DC.rhsBatch by decide), dif_pos (show (0 : Fin S3200x512.rank) ∈ DC.rhsNonContracting by decide)]
    rfl
  | ⟨1, _⟩ => exact (DC.rhsIdx_val_of_single rfl (ix2 p q) _).trans hk

/-- The third body's stored value at (p, q): row p of the left factor against row q of the right factor, plus the
    one-entry offset. -/
theorem payC_apply (x0 : FVec Ideal S512x512 .bf16) (x1 : FVec Ideal S3200x512 .bf16) (x2 : FVec Ideal S1x1 .f32)
    (p : Fin 512) (q : Fin 3200) :
    k2_pay1 (F := Ideal) x0 x1 x2 (ix2 p q)
      = (∑ k : Fin 512, x0 (ix2 p k) * x1 (ix2 q k)) + x2 (ix2 (0 : Fin 1) (0 : Fin 1)) := by
  unfold k2_pay1
  rw [shapeCast_self, shapeCast_self]
  have e : extractAt ![0, 0] x2 inpos_S1x1_p0_0 = x2 (ix2 (0 : Fin 1) (0 : Fin 1)) :=
    congrArg x2 (funext fun a => Fin.ext (by match a with | ⟨0, _⟩ => rfl | ⟨1, _⟩ => rfl))
  show FloatOps.matmul (F := Ideal) DC none x0 x1 (constant S512x3200 .f32 0x00000000#32) (ix2 p q)
        + extractAt ![0, 0] x2 inpos_S1x1_p0_0 = _
  rw [e, matmul_zero_apply_single DC none 512 rfl rfl x0 x1 (ix2 p q) (fun k => ix2 p k) (fun k => ix2 q k)
      (fun k => lhsC p q k) (fun k => rhsC p q k)]

end Cert.KernelIdeal.Pay

end
-- ==== Proof.StageA.lean ====
/-
  The first region's output array.

  The region walks 8 grid points; point t takes rows 512·t … 512·t + 511 of h (a [512, 1024] block), the whole of the
  transposed weight matrix, the whole bias row and the whole scale row, and writes back rows 512·t … 512·t + 511 of
  the [4096, 512] output. What it writes back is the body's stored value, which at (p, q) depends on row p of the h
  block, column q of the weights and entry q of the two rows — that is, `hidden` at row 512·t + p and column q.
  The 8 row blocks tile the output, so after the region the output array is `hidden` of the arrays the region found.
-/
import proofs.«114637_j43250320670761_1_alg».proof.Proof.Gen.KernelIdeal.Frame
import proofs.«114637_j43250320670761_1_alg».proof.Proof.Payloads
import proofs.«114637_j43250320670761_1_alg».proof.Proof.Spec
import Idealize.ShloMosaic.Lib.Pipeline.Value

set_option maxRecDepth 16384

noncomputable section

namespace Cert.KernelIdeal.StageA

open Cert.KernelIdeal Cert.KernelIdeal.Gen Cert.KernelIdeal.Pay Cert.Gile
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the 8 points: the h window and the output window move together along the rows and sit
    at column block 0; the weight, bias and scale windows sit at block (0, 0); the output's row block is below 8. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 7 :=
  (by decide +kernel : ∀ t : Fin grid0.N, _)

/-- Every row block of the output is some point's. -/
theorem idx_onto : ∀ q0 : Fin 8, ∃ t : Fin cfg0.N, win0_4.index t = ![q0.val, 0] :=
  (by decide +kernel : ∀ q0 : Fin 8, ∃ t : Fin grid0.N, win0_4.index t = ![q0.val, 0])

/-- An entry of the h block at point t is the entry of h in the row the output block names. -/
theorem rd0 (c : Dev nD) (t : Fin cfg0.N) (p : Fin 512) (k : Fin 1024) (r : Fin 4096)
    (hr : r.val = win0_4.index t (0 : Fin 2) * 512 + p.val) :
    iblk0 V c 0 t (ix2 p k) = V c main_arg0 (ix2 r k) := by
  obtain ⟨e0, e1, e2, e3, e4, e5, e6, e7, e8, e9⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The weight window's block is the whole transposed weight matrix. -/
theorem rd1 (c : Dev nD) (t : Fin cfg0.N) (k : Fin 1024) (q : Fin 512) (s : Fin 512) (hs : s.val = q.val) :
    iblk0 V c 1 t (ix2 k q) = V c main_v0 (ix2 k s) := by
  obtain ⟨e0, e1, e2, e3, e4, e5, e6, e7, e8, e9⟩ := idx_facts t
  show V c main_v0 (((cfg0.win 1).blk t).view.emb (ix2 k q)) = V c main_v0 (ix2 k s)
  refine congrArg (V c main_v0) (funext fun a => Fin.ext ?_)
  match a with
  | ⟨0, _⟩ => show win0_1.index t (0 : Fin 2) * 1024 + 1 * k.val = k.val; omega
  | ⟨1, _⟩ => show win0_1.index t (1 : Fin 2) * 512 + 1 * q.val = s.val; omega

/-- The bias window's block is the whole bias row. -/
theorem rd2 (c : Dev nD) (t : Fin cfg0.N) (q : Fin 512) (s : Fin 512) (hs : s.val = q.val) :
    iblk0 V c 2 t (ix2 (0 : Fin 1) q) = V c main_v2 (ix2 (0 : Fin 1) s) := by
  obtain ⟨e0, e1, e2, e3, e4, e5, e6, e7, e8, e9⟩ := idx_facts t
  show V c main_v2 (((cfg0.win 2).blk t).view.emb (ix2 (0 : Fin 1) q)) = V c main_v2 (ix2 (0 : Fin 1) s)
  refine congrArg (V c main_v2) (funext fun a => Fin.ext ?_)
  match a with
  | ⟨0, _⟩ => show win0_2.index t (0 : Fin 2) * 1 + 1 * 0 = 0; omega
  | ⟨1, _⟩ => show win0_2.index t (1 : Fin 2) * 512 + 1 * q.val = s.val; omega

/-- The scale window's block is the whole scale row. -/
theorem rd3 (c : Dev nD) (t : Fin cfg0.N) (q : Fin 512) (s : Fin 512) (hs : s.val = q.val) :
    iblk0 V c 3 t (ix2 (0 : Fin 1) q) = V c main_v3 (ix2 (0 : Fin 1) s) := by
  obtain ⟨e0, e1, e2, e3, e4, e5, e6, e7, e8, e9⟩ := idx_facts t
  show V c main_v3 (((cfg0.win 3).blk t).view.emb (ix2 (0 : Fin 1) q)) = V c main_v3 (ix2 (0 : Fin 1) s)
  refine congrArg (V c main_v3) (funext fun a => Fin.ext ?_)
  match a with
  | ⟨0, _⟩ => show win0_3.index t (0 : Fin 2) * 1 + 1 * 0 = 0; omega
  | ⟨1, _⟩ => show win0_3.index t (1 : Fin 2) * 512 + 1 * q.val = s.val; omega

/-- WHAT POINT t WRITES BACK is block t of `hidden` of the arrays as the region finds them. -/
theorem flushed_eq (c : Dev nD) (t : Fin cfg0.N) :
    (dat0 V c).flushed 4 t = ((cfg0.win 4).blk t).view.read (Elt Ideal)
      (hidden (V c main_arg0) (V c main_v0) (V c main_v2) (V c main_v3)) := by
  show (cfg0.win 4).cut (grid0.coords t) ((dat0 V c).after 4 t) = _
  rw [after0_4]
  unfold out0_4
  rw [View.canon_unit_zero zero_off]
  simp only [View.ld_unit_zero (S := S512x1024) zero_off, View.ld_unit_zero (S := S1024x512) zero_off, View.ld_unit_zero (S := S1x512) zero_off]
  obtain ⟨e0, e1, e2, e3, e4, e5, e6, e7, e8, e9⟩ := idx_facts t
  funext j
  obtain ⟨p, q, rfl⟩ : ∃ (p : Fin 512) (q : Fin 512), j = ix2 p q := ⟨j 0, j 1, eq_ix2 j⟩
  refine (payA_apply (iblk0 V c 0 t) (iblk0 V c 1 t) (iblk0 V c 2 t) (iblk0 V c 3 t) p q).trans ?_
  have hi0 : ((((cfg0.win 4).blk t).view.emb (ix2 p q)) 0).val = win0_4.index t (0 : Fin 2) * 512 + p.val := by
    show win0_4.index t (0 : Fin 2) * 512 + 1 * p.val = _; omega
  have hi1 : ((((cfg0.win 4).blk t).view.emb (ix2 p q)) 1).val = q.val := by
    show win0_4.index t (1 : Fin 2) * 512 + 1 * q.val = _; omega
  show _ = hiddenAt (V c main_arg0) (V c main_v0) (V c main_v2) (V c main_v3)
    ((((cfg0.win 4).blk t).view.emb (ix2 p q)) 0) ((((cfg0.win 4).blk t).view.emb (ix2 p q)) 1)
  unfold hiddenAt
  rw [rd2 V c t q _ hi1, rd3 V c t q _ hi1,
    Finset.sum_congr rfl fun k _ => by rw [rd0 V c t p k _ hi0, rd1 V c t k q _ hi1]]

/-- An index of the output array is in point t's block iff each coordinate is in the block's range on its axis. -/
theorem mem_blk (t : Fin cfg0.N) (i : S4096x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v6).slice (win0_4.rect t)).set ↔ _
  rw [View.set_slice_whole, Rect.mem_set_unit]
  exact Iff.rfl

/-- The 8 row blocks tile the output: row r lies in the block of the point whose row block is r / 512. -/
theorem cover (i : S4096x512.Idx) :
    ∃ t : Fin cfg0.N, (cfg0.win 4).flush t = true ∧ i ∈ ((cfg0.win 4).blk t).view.set := by
  have hi0 : (i 0).val < 4096 := (i 0).isLt
  have hi1 : (i 1).val < 512 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 512 ≤ (i 1).val ∧ (i 1).val < win0_4.index t (1 : Fin 2) * 512 + 512
    omega

/-- THE OUTPUT ARRAY after the region: `hidden` of the arrays the region found. -/
theorem final (c : Dev nD) :
    (dat0 V c).arrAt 4 cfg0.N = hidden (V c main_arg0) (V c main_v0) (V c main_v2) (V c main_v3) :=
  (dat0 V c).arrAt_eq_of_cover 4 _ (fun t _ => flushed_eq V c t) cover

end Cert.KernelIdeal.StageA

end
-- ==== Proof.StageB.lean ====
/-
  The second region's output array.

  The region walks 8 grid points; point t takes rows 4000·t … 4000·t + 3999 of l (a [4000, 512] block), the whole of
  the transposed weight matrix and the whole bias row, and writes back rows 4000·t … 4000·t + 3999 of the
  [32000, 512] output. What it writes back at (p, q) depends on row p of the l block, column q of the weights and
  entry q of the bias row — that is, `label` at row 4000·t + p and column q. The 8 row blocks tile the output, so
  after the region the output array is `label` of the arrays the region found.
-/
import proofs.«114637_j43250320670761_1_alg».proof.Proof.Gen.KernelIdeal.Frame
import proofs.«114637_j43250320670761_1_alg».proof.Proof.Payloads
import proofs.«114637_j43250320670761_1_alg».proof.Proof.Spec
import Idealize.ShloMosaic.Lib.Pipeline.Value

set_option maxRecDepth 16384

noncomputable section

namespace Cert.KernelIdeal.StageB

open Cert.KernelIdeal Cert.KernelIdeal.Gen Cert.KernelIdeal.Pay Cert.Gile
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the 8 points: the l window and the output window move together along the rows and sit
    at column block 0; the weight and bias windows sit at block (0, 0); the output's row block is below 8. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every row block of the output is some point's. -/
theorem idx_onto : ∀ q0 : Fin 8, ∃ t : Fin cfg1.N, win1_3.index t = ![q0.val, 0] :=
  (by decide +kernel : ∀ q0 : Fin 8, ∃ t : Fin grid1.N, win1_3.index t = ![q0.val, 0])

/-- An entry of the l block at point t is the entry of l in the row the output block names. -/
theorem rd0 (c : Dev nD) (t : Fin cfg1.N) (p : Fin 4000) (k : Fin 512) (r : Fin 32000)
    (hr : r.val = win1_3.index t (0 : Fin 2) * 4000 + p.val) :
    iblk1 V c 0 t (ix2 p k) = V c main_arg1 (ix2 r k) := by
  obtain ⟨e0, e1, e2, e3, e4, e5, e6, e7⟩ := idx_facts t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 4000 + 1 * p.val = r.val; omega
  | ⟨1, _⟩ => show win1_0.index t (1 : Fin 2) * 512 + 1 * k.val = k.val; omega

/-- The weight window's block is the whole transposed weight matrix. -/
theorem rd1 (c : Dev nD) (t : Fin cfg1.N) (k : Fin 512) (q : Fin 512) (s : Fin 512) (hs : s.val = q.val) :
    iblk1 V c 1 t (ix2 k q) = V c main_v1 (ix2 k s) := by
  obtain ⟨e0, e1, e2, e3, e4, e5, e6, e7⟩ := idx_facts t
  show V c main_v1 (((cfg1.win 1).blk t).view.emb (ix2 k q)) = V c main_v1 (ix2 k s)
  refine congrArg (V c main_v1) (funext fun a => Fin.ext ?_)
  match a with
  | ⟨0, _⟩ => show win1_1.index t (0 : Fin 2) * 512 + 1 * k.val = k.val; omega
  | ⟨1, _⟩ => show win1_1.index t (1 : Fin 2) * 512 + 1 * q.val = s.val; omega

/-- The bias window's block is the whole bias row. -/
theorem rd2 (c : Dev nD) (t : Fin cfg1.N) (q : Fin 512) (s : Fin 512) (hs : s.val = q.val) :
    iblk1 V c 2 t (ix2 (0 : Fin 1) q) = V c main_v4 (ix2 (0 : Fin 1) s) := by
  obtain ⟨e0, e1, e2, e3, e4, e5, e6, e7⟩ := idx_facts t
  show V c main_v4 (((cfg1.win 2).blk t).view.emb (ix2 (0 : Fin 1) q)) = V c main_v4 (ix2 (0 : Fin 1) s)
  refine congrArg (V c main_v4) (funext fun a => Fin.ext ?_)
  match a with
  | ⟨0, _⟩ => show win1_2.index t (0 : Fin 2) * 1 + 1 * 0 = 0; omega
  | ⟨1, _⟩ => show win1_2.index t (1 : Fin 2) * 512 + 1 * q.val = s.val; omega

/-- WHAT POINT t WRITES BACK is block t of `label` of the arrays as the region finds them. -/
theorem flushed_eq (c : Dev nD) (t : Fin cfg1.N) :
    (dat1 V c).flushed 3 t = ((cfg1.win 3).blk t).view.read (Elt Ideal)
      (label (V c main_arg1) (V c main_v1) (V c main_v4)) := by
  show (cfg1.win 3).cut (grid1.coords t) ((dat1 V c).after 3 t) = _
  rw [after1_3]
  unfold out1_3
  rw [View.canon_unit_zero zero_off]
  simp only [View.ld_unit_zero (S := S4000x512) zero_off, View.ld_unit_zero (S := S512x512) zero_off, View.ld_unit_zero (S := S1x512) zero_off]
  obtain ⟨e0, e1, e2, e3, e4, e5, e6, e7⟩ := idx_facts t
  funext j
  obtain ⟨p, q, rfl⟩ : ∃ (p : Fin 4000) (q : Fin 512), j = ix2 p q := ⟨j 0, j 1, eq_ix2 j⟩
  refine (payB_apply (iblk1 V c 0 t) (iblk1 V c 1 t) (iblk1 V c 2 t) p q).trans ?_
  have hi0 : ((((cfg1.win 3).blk t).view.emb (ix2 p q)) 0).val = win1_3.index t (0 : Fin 2) * 4000 + p.val := by
    show win1_3.index t (0 : Fin 2) * 4000 + 1 * p.val = _; omega
  have hi1 : ((((cfg1.win 3).blk t).view.emb (ix2 p q)) 1).val = q.val := by
    show win1_3.index t (1 : Fin 2) * 512 + 1 * q.val = _; omega
  show _ = labelAt (V c main_arg1) (V c main_v1) (V c main_v4)
    ((((cfg1.win 3).blk t).view.emb (ix2 p q)) 0) ((((cfg1.win 3).blk t).view.emb (ix2 p q)) 1)
  unfold labelAt
  rw [rd2 V c t q _ hi1,
    Finset.sum_congr rfl fun k _ => by rw [rd0 V c t p k _ hi0, rd1 V c t k q _ hi1]]

/-- An index of the output array is in point t's block iff each coordinate is in the block's range on its axis. -/
theorem mem_blk (t : Fin cfg1.N) (i : S32000x512.Idx) :
    i ∈ ((cfg1.win 3).blk t).view.set ↔ ∀ a : Fin 2, win1_3.index t a * S4000x512.size a ≤ (i a).val
      ∧ (i a).val < win1_3.index t a * S4000x512.size a + S4000x512.size a := by
  show i ∈ ((View.whole main_v7).slice (win1_3.rect t)).set ↔ _
  rw [View.set_slice_whole, Rect.mem_set_unit]
  exact Iff.rfl

/-- The 8 row blocks tile the output: row r lies in the block of the point whose row block is r / 4000. -/
theorem cover (i : S32000x512.Idx) :
    ∃ t : Fin cfg1.N, (cfg1.win 3).flush t = true ∧ i ∈ ((cfg1.win 3).blk t).view.set := by
  have hi0 : (i 0).val < 32000 := (i 0).isLt
  have hi1 : (i 1).val < 512 := (i 1).isLt
  obtain ⟨t, ht⟩ := idx_onto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 512 ≤ (i 1).val ∧ (i 1).val < win1_3.index t (1 : Fin 2) * 512 + 512
    omega

/-- THE OUTPUT ARRAY after the region: `label` of the arrays the region found. -/
theorem final (c : Dev nD) :
    (dat1 V c).arrAt 3 cfg1.N = label (V c main_arg1) (V c main_v1) (V c main_v4) :=
  (dat1 V c).arrAt_eq_of_cover 3 _ (fun t _ => flushed_eq V c t) cover

end Cert.KernelIdeal.StageB

end
-- ==== Proof.StageC.lean ====
/-
  The third region's output array.

  The region walks an 8 × 10 grid; point (a, b) takes rows 512·a … 512·a + 511 of the first stage's array (a
  [512, 512] block), rows 3200·b … 3200·b + 3199 of the second stage's array (a [3200, 512] block) and the one-entry
  offset, and writes back the [512, 3200] block of the [4096, 32000] output at rows 512·a … and columns 3200·b ….
  What it writes back at (p, q) is row p of the first block against row q of the second, plus the offset — that is,
  `scores` at (512·a + p, 3200·b + q). The 80 blocks tile the output, so after the region the output array is
  `scores` of the arrays the region found.
-/
import proofs.«114637_j43250320670761_1_alg».proof.Proof.Gen.KernelIdeal.Frame
import proofs.«114637_j43250320670761_1_alg».proof.Proof.Payloads
import proofs.«114637_j43250320670761_1_alg».proof.Proof.Spec
import Idealize.ShloMosaic.Lib.Pipeline.Value

set_option maxRecDepth 16384

noncomputable section

namespace Cert.KernelIdeal.StageC

open Cert.KernelIdeal Cert.KernelIdeal.Gen Cert.KernelIdeal.Pay Cert.Gile
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the 80 points: the first input's row block is the output's row block, the second
    input's row block is the output's COLUMN block, both inputs sit at column block 0, the offset window at block
    (0, 0); the output's row block is below 8 and its column block below 10. -/
theorem idx_facts : ∀ t : Fin cfg2.N, win2_0.index t (0 : Fin 2) = win2_3.index t (0 : Fin 2)
    ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = 0
    ∧ win2_3.index t (0 : Fin 2) ≤ 7 ∧ win2_3.index t (1 : Fin 2) ≤ 9 :=
  (by decide +kernel : ∀ t : Fin grid2.N, _)

/-- Every block of the output is some point's. -/
theorem idx_onto : ∀ (q0 : Fin 8) (q1 : Fin 10), ∃ t : Fin cfg2.N, win2_3.index t = ![q0.val, q1.val] :=
  (by decide +kernel : ∀ (q0 : Fin 8) (q1 : Fin 10), ∃ t : Fin grid2.N, win2_3.index t = ![q0.val, q1.val])

/-- An entry of the first input's block at point t is the entry of that array in the row the output block names. -/
theorem rd0 (c : Dev nD) (t : Fin cfg2.N) (p : Fin 512) (k : Fin 512) (r : Fin 4096)
    (hr : r.val = win2_3.index t (0 : Fin 2) * 512 + p.val) :
    iblk2 V c 0 t (ix2 p k) = V c main_v6 (ix2 r k) := by
  obtain ⟨e0, e1, e2, e3, e4, e5, e6, e7⟩ := idx_facts t
  show V c main_v6 (((cfg2.win 0).blk t).view.emb (ix2 p k)) = V c main_v6 (ix2 r k)
  refine congrArg (V c main_v6) (funext fun a => Fin.ext ?_)
  match a with
  | ⟨0, _⟩ => show win2_0.index t (0 : Fin 2) * 512 + 1 * p.val = r.val; omega
  | ⟨1, _⟩ => show win2_0.index t (1 : Fin 2) * 512 + 1 * k.val = k.val; omega

/-- An entry of the second input's block at point t is the entry of that array in the row the output block's
    COLUMN names. -/
theorem rd1 (c : Dev nD) (t : Fin cfg2.N) (q : Fin 3200) (k : Fin 512) (s : Fin 32000)
    (hs : s.val = win2_3.index t (1 : Fin 2) * 3200 + q.val) :
    iblk2 V c 1 t (ix2 q k) = V c main_v7 (ix2 s k) := by
  obtain ⟨e0, e1, e2, e3, e4, e5, e6, e7⟩ := idx_facts t
  show V c main_v7 (((cfg2.win 1).blk t).view.emb (ix2 q k)) = V c main_v7 (ix2 s k)
  refine congrArg (V c main_v7) (funext fun a => Fin.ext ?_)
  match a with
  | ⟨0, _⟩ => show win2_1.index t (0 : Fin 2) * 3200 + 1 * q.val = s.val; omega
  | ⟨1, _⟩ => show win2_1.index t (1 : Fin 2) * 512 + 1 * k.val = k.val; omega

/-- The offset window's block is the whole one-entry array. -/
theorem rd2 (c : Dev nD) (t : Fin cfg2.N) :
    iblk2 V c 2 t (ix2 (0 : Fin 1) (0 : Fin 1)) = V c main_v5 (ix2 (0 : Fin 1) (0 : Fin 1)) := by
  obtain ⟨e0, e1, e2, e3, e4, e5, e6, e7⟩ := idx_facts t
  show V c main_v5 (((cfg2.win 2).blk t).view.emb (ix2 (0 : Fin 1) (0 : Fin 1))) = V c main_v5 (ix2 (0 : Fin 1) (0 : Fin 1))
  refine congrArg (V c main_v5) (funext fun a => Fin.ext ?_)
  match a with
  | ⟨0, _⟩ => show win2_2.index t (0 : Fin 2) * 1 + 1 * 0 = 0; omega
  | ⟨1, _⟩ => show win2_2.index t (1 : Fin 2) * 1 + 1 * 0 = 0; omega

/-- WHAT POINT t WRITES BACK is block t of `scores` of the arrays as the region finds them. -/
theorem flushed_eq (c : Dev nD) (t : Fin cfg2.N) :
    (dat2 V c).flushed 3 t = ((cfg2.win 3).blk t).view.read (Elt Ideal)
      (scores (V c main_v6) (V c main_v7) (V c main_v5)) := by
  show (cfg2.win 3).cut (grid2.coords t) ((dat2 V c).after 3 t) = _
  rw [after2_3]
  unfold out2_3
  rw [View.canon_unit_zero zero_off]
  simp only [View.ld_unit_zero (S := S512x512) zero_off, View.ld_unit_zero (S := S3200x512) zero_off, View.ld_unit_zero (S := S1x1) zero_off]
  obtain ⟨e0, e1, e2, e3, e4, e5, e6, e7⟩ := idx_facts t
  funext j
  obtain ⟨p, q, rfl⟩ : ∃ (p : Fin 512) (q : Fin 3200), j = ix2 p q := ⟨j 0, j 1, eq_ix2 j⟩
  refine (payC_apply (iblk2 V c 0 t) (iblk2 V c 1 t) (iblk2 V c 2 t) p q).trans ?_
  have hi0 : ((((cfg2.win 3).blk t).view.emb (ix2 p q)) 0).val = win2_3.index t (0 : Fin 2) * 512 + p.val := by
    show win2_3.index t (0 : Fin 2) * 512 + 1 * p.val = _; omega
  have hi1 : ((((cfg2.win 3).blk t).view.emb (ix2 p q)) 1).val = win2_3.index t (1 : Fin 2) * 3200 + q.val := by
    show win2_3.index t (1 : Fin 2) * 3200 + 1 * q.val = _; omega
  show _ = scoresAt (V c main_v6) (V c main_v7) (V c main_v5)
    ((((cfg2.win 3).blk t).view.emb (ix2 p q)) 0) ((((cfg2.win 3).blk t).view.emb (ix2 p q)) 1)
  unfold scoresAt
  rw [rd2 V c t,
    Finset.sum_congr rfl fun k _ => by rw [rd0 V c t p k _ hi0, rd1 V c t q k _ hi1]]

/-- An index of the output array is in point t's block iff each coordinate is in the block's range on its axis. -/
theorem mem_blk (t : Fin cfg2.N) (i : S4096x32000.Idx) :
    i ∈ ((cfg2.win 3).blk t).view.set ↔ ∀ a : Fin 2, win2_3.index t a * S512x3200.size a ≤ (i a).val
      ∧ (i a).val < win2_3.index t a * S512x3200.size a + S512x3200.size a := by
  show i ∈ ((View.whole main_v8).slice (win2_3.rect t)).set ↔ _
  rw [View.set_slice_whole, Rect.mem_set_unit]
  exact Iff.rfl

/-- The 80 blocks tile the output: (r, s) lies in the block of the point whose block is (r / 512, s / 3200). -/
theorem cover (i : S4096x32000.Idx) :
    ∃ t : Fin cfg2.N, (cfg2.win 3).flush t = true ∧ i ∈ ((cfg2.win 3).blk t).view.set := by
  have hi0 : (i 0).val < 4096 := (i 0).isLt
  have hi1 : (i 1).val < 32000 := (i 1).isLt
  obtain ⟨t, ht⟩ := idx_onto ⟨(i 0).val / 512, by omega⟩ ⟨(i 1).val / 3200, by omega⟩
  have q0 : win2_3.index t (0 : Fin 2) = (i 0).val / 512 := congrFun ht 0
  have q1 : win2_3.index t (1 : Fin 2) = (i 1).val / 3200 := congrFun ht 1
  refine ⟨t, flush2_3 t, ?_⟩
  rw [mem_blk]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 3200 ≤ (i 1).val ∧ (i 1).val < win2_3.index t (1 : Fin 2) * 3200 + 3200
    omega

/-- THE OUTPUT ARRAY after the region: `scores` of the arrays the region found. -/
theorem final (c : Dev nD) :
    (dat2 V c).arrAt 3 cfg2.N = scores (V c main_v6) (V c main_v7) (V c main_v5) :=
  (dat2 V c).arrAt_eq_of_cover 3 _ (fun t _ => flushed_eq V c t) cover

end Cert.KernelIdeal.StageC

end
-- ==== Proof.KernelValue.lean ====
/-
  The idealized kernel program's result as one function of its argument arrays.

  Walking back from the last boundary: the result buffer is the third region's output, `scores` of the two
  intermediate arrays and the offset as the third region found them. The first intermediate array is the first
  region's output (the second region does not touch it), `hidden` of h, the transposed first weight matrix and the
  bias and scale rows as the first region found them; the second is the second region's output, `label` of l, the
  transposed second weight matrix and the second bias row, which the first region left as the host stretch made them.
  The host stretch makes the two transposes and the four reshapes of the arguments and leaves the arguments alone.
-/
import proofs.«114637_j43250320670761_1_alg».proof.Proof.KernelRun
import proofs.«114637_j43250320670761_1_alg».proof.Proof.Result
import proofs.«114637_j43250320670761_1_alg».proof.Proof.StageA
import proofs.«114637_j43250320670761_1_alg».proof.Proof.StageB
import proofs.«114637_j43250320670761_1_alg».proof.Proof.StageC
import Idealize.ShloMosaic.Lib.StableHlo.Run

set_option maxRecDepth 16384

noncomputable section

namespace Cert.KernelIdeal.Named

open Cert.KernelIdeal Cert.KernelIdeal.Gen Cert.Gile
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the host stretch leaves -/

theorem host_arg0 (c : Dev nD) : W1 m ρ c (Proc.devRef .tc main_arg0) = m ((c : Thread nD τ).loc main_arg0) := by
  show StableHlo.after hostOps0 (W0 m ρ c) (Proc.devRef .tc main_arg0) = _
  after_results <;> rfl
theorem host_arg1 (c : Dev nD) : W1 m ρ c (Proc.devRef .tc main_arg1) = m ((c : Thread nD τ).loc main_arg1) := by
  show StableHlo.after hostOps0 (W0 m ρ c) (Proc.devRef .tc main_arg1) = _
  after_results <;> rfl
theorem host_v0 (c : Dev nD) : W1 m ρ c (Proc.devRef .tc main_v0)
    = transpose S1024x512 [1, 0] (m ((c : Thread nD τ).loc main_arg2)) transposes_S512x1024_S1024x512_1_0 := by
  show StableHlo.after hostOps0 (W0 m ρ c) (Proc.devRef .tc main_v0) = _
  after_results <;> rfl
theorem host_v1 (c : Dev nD) : W1 m ρ c (Proc.devRef .tc main_v1)
    = transpose S512x512 [1, 0] (m ((c : Thread nD τ).loc main_arg4)) transposes_S512x512_S512x512_1_0 := by
  show StableHlo.after hostOps0 (W0 m ρ c) (Proc.devRef .tc main_v1) = _
  after_results <;> rfl
theorem host_v2 (c : Dev nD) : W1 m ρ c (Proc.devRef .tc main_v2)
    = shapeCast S1x512 (m ((c : Thread nD τ).loc main_arg3)) shapeCasts_S512_S1x512 := by
  show StableHlo.after hostOps0 (W0 m ρ c) (Proc.devRef .tc main_v2) = _
  after_results <;> rfl
theorem host_v3 (c : Dev nD) : W1 m ρ c (Proc.devRef .tc main_v3)
    = shapeCast S1x512 (m ((c : Thread nD τ).loc main_arg6)) shapeCasts_S512_S1x512 := by
  show StableHlo.after hostOps0 (W0 m ρ c) (Proc.devRef .tc main_v3) = _
  after_results <;> rfl
theorem host_v4 (c : Dev nD) : W1 m ρ c (Proc.devRef .tc main_v4)
    = shapeCast S1x512 (m ((c : Thread nD τ).loc main_arg5)) shapeCasts_S512_S1x512 := by
  show StableHlo.after hostOps0 (W0 m ρ c) (Proc.devRef .tc main_v4) = _
  after_results <;> rfl
theorem host_v5 (c : Dev nD) : W1 m ρ c (Proc.devRef .tc main_v5)
    = shapeCast S1x1 (m ((c : Thread nD τ).loc main_arg7)) shapeCasts_S1_S1x1 := by
  show StableHlo.after hostOps0 (W0 m ρ c) (Proc.devRef .tc main_v5) = _
  after_results <;> rfl

/-! ## The chain of boundaries -/

/-- The first intermediate array when the third region is entered: the first region's output. -/
theorem entry_v6 (c : Dev nD) : V3 m ρ c main_v6
    = hidden (m ((c : Thread nD τ).loc main_arg0))
        (transpose S1024x512 [1, 0] (m ((c : Thread nD τ).loc main_arg2)) transposes_S512x1024_S1024x512_1_0)
        (shapeCast S1x512 (m ((c : Thread nD τ).loc main_arg3)) shapeCasts_S512_S1x512)
        (shapeCast S1x512 (m ((c : Thread nD τ).loc main_arg6)) shapeCasts_S512_S1x512) := by
  have h0 : V1 m ρ c main_arg0 = m ((c : Thread nD τ).loc main_arg0) := host_arg0 m ρ c
  have h1 : V1 m ρ c main_v0 = _ := host_v0 m ρ c
  have h2 : V1 m ρ c main_v2 = _ := host_v2 m ρ c
  have h3 : V1 m ρ c main_v3 = _ := host_v3 m ρ c
  calc V3 m ρ c main_v6
      = W2 m ρ c (Proc.devRef .tc main_v6) := W3_of_ne m ρ c main_v6 (by decide)
    _ = (dat0 (V1 m ρ) c).arrAt 4 cfg0.N := W2_arr m ρ c 4
    _ = hidden (V1 m ρ c main_arg0) (V1 m ρ c main_v0) (V1 m ρ c main_v2) (V1 m ρ c main_v3) := StageA.final (V1 m ρ) c
    _ = _ := by rw [h0, h1, h2, h3]

/-- The second intermediate array when the third region is entered: the second region's output. -/
theorem entry_v7 (c : Dev nD) : V3 m ρ c main_v7
    = label (m ((c : Thread nD τ).loc main_arg1))
        (transpose S512x512 [1, 0] (m ((c : Thread nD τ).loc main_arg4)) transposes_S512x512_S512x512_1_0)
        (shapeCast S1x512 (m ((c : Thread nD τ).loc main_arg5)) shapeCasts_S512_S1x512) := by
  have h0 : V2 m ρ c main_arg1 = m ((c : Thread nD τ).loc main_arg1) :=
    (W2_of_ne m ρ c main_arg1 (by decide)).trans (host_arg1 m ρ c)
  have h1 : V2 m ρ c main_v1 = _ := (W2_of_ne m ρ c main_v1 (by decide)).trans (host_v1 m ρ c)
  have h2 : V2 m ρ c main_v4 = _ := (W2_of_ne m ρ c main_v4 (by decide)).trans (host_v4 m ρ c)
  calc V3 m ρ c main_v7
      = (dat1 (V2 m ρ) c).arrAt 3 cfg1.N := W3_arr m ρ c 3
    _ = label (V2 m ρ c main_arg1) (V2 m ρ c main_v1) (V2 m ρ c main_v4) := StageB.final (V2 m ρ) c
    _ = _ := by rw [h0, h1, h2]

/-- The offset when the third region is entered: as the host stretch made it. -/
theorem entry_v5 (c : Dev nD) : V3 m ρ c main_v5
    = shapeCast S1x1 (m ((c : Thread nD τ).loc main_arg7)) shapeCasts_S1_S1x1 :=
  ((W3_of_ne m ρ c main_v5 (by decide)).trans (W2_of_ne m ρ c main_v5 (by decide))).trans (host_v5 m ρ c)

/-- THE RESULT at the last boundary is `result` of the argument arrays as launched. -/
theorem last_v8 (c : Dev nD) : W4 m ρ c (Proc.devRef .tc main_v8)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have h6 := entry_v6 m ρ c
  have h7 := entry_v7 m ρ c
  have h5 := entry_v5 m ρ c
  calc W4 m ρ c (Proc.devRef .tc main_v8)
      = (dat2 (V3 m ρ) c).arrAt 3 cfg2.N := W4_arr m ρ c 3
    _ = scores (V3 m ρ c main_v6) (V3 m ρ c main_v7) (V3 m ρ c main_v5) := StageC.final (V3 m ρ) c
    _ = _ := by rw [h6, h7, h5]; rfl

/-- The program's run with the result at `result` of the arguments. -/
theorem run_result : θ_run defs (onTc (τ := τ) (main (F := Ideal))) ⟨m, fun _ => 0, ρ⟩ (fun r => ∀ c : Dev nD,
      r.2.mem ((c.tc : Thread nD τ).loc main_v8)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (last_v8 m ρ c), (h c).2⟩) (run (F := Ideal) m ρ)

end Cert.KernelIdeal.Named

end
-- ==== Proof.RefValue.lean ====
/-
  The reference's result is the program's `result`, index by index.

  The reference computes relu (h · Whᵀ + bh) · w, relu (l · Wlᵀ + bl), contracts the first against the TRANSPOSE of the
  second and adds the offset. At (n, m) that is
      ∑ j, (max (∑ k, h (n, k) · Wh (j, k) + bh (j)) 0 · w (j)) · max (∑ k, l (m, k) · Wl (j, k) + bl (j)) 0 + b (0).
  `result` is the same sum: its transposed weight matrices read Wh (j, k) at (k, j), its one-row reshapes read
  bh (j) at (0, j), and contracting against the transposed second factor at (j, m) reads the second factor at (m, j).
  No arithmetic law is used: the two sides are the same expression once every layout operation is read at its index.
-/
import proofs.«114637_j43250320670761_1_alg».proof.Proof.Gen.ReferenceIdeal.Read
import proofs.«114637_j43250320670761_1_alg».proof.Proof.Result
import Idealize.ShloMosaic.Lib.ValueLayout

noncomputable section

namespace Cert.ReferenceIdeal.RefValue

open Cert.ReferenceIdeal Cert.ReferenceIdeal.Gen Cert.ReferenceIdeal.Read Cert.Gile
open Idealize.ShloMosaic Idealize.ShloMosaic.ValueIdx

variable (x0 : FVec Ideal S4096x1024 .f32) (x1 : FVec Ideal S32000x512 .f32) (x2 : FVec Ideal S512x1024 .f32)
  (x3 : FVec Ideal S512 .f32) (x4 : FVec Ideal S512x512 .f32) (x5 x6 : FVec Ideal S512 .f32) (x7 : FVec Ideal S1 .f32)

/-- The reference's first factor at (n, j) is `hidden` there. -/
theorem first_factor (ht : S512x1024.Transposes [1, 0] S1024x512) (h3 h6 : S512.ShapeCasts S1x512) (n : Fin 4096) (j : Fin 512) :
    val_main_v14 (F := Ideal) x0 x2 x3 x6 (ix2 n j)
      = hiddenAt x0 (transpose S1024x512 [1, 0] x2 ht) (shapeCast S1x512 x3 h3) (shapeCast S1x512 x6 h6) n j := by
  have el : ∀ k : Fin 1024, lidx_main_v1 (ix2 n j) k = ix2 n k := fun k =>
    funext fun a => Fin.ext (by match a with | ⟨0, _⟩ => rfl | ⟨1, _⟩ => rfl)
  have er : ∀ k : Fin 1024, idx_main_v0 (ridx_main_v1 (ix2 n j) k) = ix2 j k := fun k =>
    funext fun a => Fin.ext (by match a with | ⟨0, _⟩ => rfl | ⟨1, _⟩ => rfl)
  have e3 : idx_main_v2 (idx_main_v3 (ix2 n j)) = ix1 j :=
    funext fun a => Fin.ext (by match a with | ⟨0, _⟩ => rfl)
  have e6 : idx_main_v12 (idx_main_v13 (ix2 n j)) = ix1 j :=
    funext fun a => Fin.ext (by match a with | ⟨0, _⟩ => rfl)
  have hs : ∀ k : Fin 1024, x0 (lidx_main_v1 (ix2 n j) k) * val_main_v0 (F := Ideal) x2 (ridx_main_v1 (ix2 n j) k)
      = x0 (ix2 n k) * transpose S1024x512 [1, 0] x2 ht (ix2 k j) := fun k => by
    rw [val_main_v0_apply, el k, er k, transpose_ix2_apply]
  rw [val_main_v14_apply, val_main_v5_apply, val_main_v4_apply, val_main_v1_apply, val_main_v3_apply, val_main_v2_apply,
    val_main_call0_v0_apply, val_main_call0_cst_apply, val_main_v13_apply, val_main_v12_apply, e3, e6,
    Finset.sum_congr rfl fun k _ => hs k]
  unfold hiddenAt
  rw [shapeCast_a_1a_apply, shapeCast_a_1a_apply]
  rfl

/-- The reference's second factor at (m, j) is `label` there. -/
theorem second_factor (ht : S512x512.Transposes [1, 0] S512x512) (h5 : S512.ShapeCasts S1x512) (m : Fin 32000) (j : Fin 512) :
    val_main_v11 (F := Ideal) x1 x4 x5 (ix2 m j)
      = labelAt x1 (transpose S512x512 [1, 0] x4 ht) (shapeCast S1x512 x5 h5) m j := by
  have el : ∀ k : Fin 512, lidx_main_v7 (ix2 m j) k = ix2 m k := fun k =>
    funext fun a => Fin.ext (by match a with | ⟨0, _⟩ => rfl | ⟨1, _⟩ => rfl)
  have er : ∀ k : Fin 512, idx_main_v6 (ridx_main_v7 (ix2 m j) k) = ix2 j k := fun k =>
    funext fun a => Fin.ext (by match a with | ⟨0, _⟩ => rfl | ⟨1, _⟩ => rfl)
  have e5 : idx_main_v8 (idx_main_v9 (ix2 m j)) = ix1 j :=
    funext fun a => Fin.ext (by match a with | ⟨0, _⟩ => rfl)
  have hs : ∀ k : Fin 512, x1 (lidx_main_v7 (ix2 m j) k) * val_main_v6 (F := Ideal) x4 (ridx_main_v7 (ix2 m j) k)
      = x1 (ix2 m k) * transpose S512x512 [1, 0] x4 ht (ix2 k j) := fun k => by
    rw [val_main_v6_apply, el k, er k, transpose_ix2_apply]
  rw [val_main_v11_apply, val_main_v10_apply, val_main_v7_apply, val_main_v9_apply, val_main_v8_apply,
    val_main_call1_v0_apply, val_main_call1_cst_apply, e5, Finset.sum_congr rfl fun k _ => hs k]
  unfold labelAt
  rw [shapeCast_a_1a_apply]
  rfl

/-- The reference's offset, a one-entry vector reshaped to a scalar, is that entry. -/
theorem offset_eq (j0 : S_.Idx) : val_main_v17 (F := Ideal) x7 j0 = x7 (ix1 (0 : Fin 1)) := by
  unfold val_main_v17
  refine shapeCast_apply x7 shapeCasts_S1_S_ j0 (ix1 (0 : Fin 1)) ?_
  rw [Shape.rowMajor_val_one]
  have h : (S_.rowMajor j0).val < 1 := (S_.rowMajor j0).isLt
  show 0 = _
  omega

/-- THE REFERENCE'S RESULT is the program's `result` of the same arrays. -/
theorem ref_eq : val_main_v19 (F := Ideal) x0 x1 x2 x3 x4 x5 x6 x7 = Cert.KernelIdeal.Named.result x0 x1 x2 x3 x4 x5 x6 x7 := by
  funext i
  obtain ⟨n, m, rfl⟩ : ∃ (n : Fin 4096) (m : Fin 32000), i = ix2 n m := ⟨i 0, i 1, eq_ix2 i⟩
  have el : ∀ j : Fin 512, lidx_main_v16 (ix2 n m) j = ix2 n j := fun j =>
    funext fun a => Fin.ext (by match a with | ⟨0, _⟩ => rfl | ⟨1, _⟩ => rfl)
  have er : ∀ j : Fin 512, idx_main_v15 (ridx_main_v16 (ix2 n m) j) = ix2 m j := fun j =>
    funext fun a => Fin.ext (by match a with | ⟨0, _⟩ => rfl | ⟨1, _⟩ => rfl)
  unfold Cert.KernelIdeal.Named.result
  show _ = scoresAt _ _ _ n m
  unfold scoresAt
  have hs : ∀ j : Fin 512, val_main_v14 (F := Ideal) x0 x2 x3 x6 (lidx_main_v16 (ix2 n m) j)
        * val_main_v15 (F := Ideal) x1 x4 x5 (ridx_main_v16 (ix2 n m) j)
      = hidden x0 (transpose S1024x512 [1, 0] x2 Cert.KernelIdeal.Facts₀.transposes_S512x1024_S1024x512_1_0)
          (shapeCast S1x512 x3 Cert.KernelIdeal.Facts₀.shapeCasts_S512_S1x512)
          (shapeCast S1x512 x6 Cert.KernelIdeal.Facts₀.shapeCasts_S512_S1x512) (ix2 n j)
        * label x1 (transpose S512x512 [1, 0] x4 Cert.KernelIdeal.Facts₀.transposes_S512x512_S512x512_1_0)
          (shapeCast S1x512 x5 Cert.KernelIdeal.Facts₀.shapeCasts_S512_S1x512) (ix2 m j) := fun j => by
    rw [val_main_v15_apply, el j, er j, first_factor, second_factor]
    rfl
  rw [val_main_v19_apply, val_main_v16_apply, val_main_v18_apply, offset_eq, Finset.sum_congr rfl fun j _ => hs j,
    shapeCast_a_1a_apply]
  rfl

end Cert.ReferenceIdeal.RefValue

end
-- ==== Proof.lean ====
/-
  The certificate of the label-scoring program against its reference: the three frames, the (empty) idealization ledger
  and the equality of the two idealized programs' results over the extended reals.

  The program computes, in three kernel regions after a short stretch of host transposes and reshapes,
      scores (n, m) = ∑ j, (relu (h · Whᵀ + bh) (n, j) · w (j)) · relu (l · Wlᵀ + bl) (m, j) + b,
  every region tiling its output by row blocks (the third by row and column blocks); the reference computes the same
  sum with whole-array host operations. At the ideal instance a change of float format is the identity and a matrix
  product is the exact sum of products, so both results are the SAME expression of the eight argument arrays, index by
  index: no algebraic law joins them, only the reading of each layout operation (transpose, reshape to a row, block of
  an array) at an index. The precondition (finite inputs) is not used.

  The modules: `KernelRun` names the result buffer at the end of the program's run; `Payloads` reads each body's stored
  value at an index; `StageA`, `StageB`, `StageC` show that each region's output array is its stage's function
  (`Spec`) of the arrays the region finds; `KernelValue` chains the regions and the host stretch into `result` of the
  arguments; `RefValue` reads the reference's run as the same `result`.
-/
import proofs.«114637_j43250320670761_1_alg».proof.Defs
import proofs.«114637_j43250320670761_1_alg».proof.Proof.Gen.Kernel
import proofs.«114637_j43250320670761_1_alg».proof.Proof.Gen.Kernel.Skeleton
import proofs.«114637_j43250320670761_1_alg».proof.Proof.Gen.Kernel.Launch
import proofs.«114637_j43250320670761_1_alg».proof.Proof.Gen.Kernel.Points
import proofs.«114637_j43250320670761_1_alg».proof.Proof.Gen.Kernel.Frame
import proofs.«114637_j43250320670761_1_alg».proof.Proof.Gen.KernelIdeal
import proofs.«114637_j43250320670761_1_alg».proof.Proof.Gen.KernelIdeal.Skeleton
import proofs.«114637_j43250320670761_1_alg».proof.Proof.Gen.KernelIdeal.Launch
import proofs.«114637_j43250320670761_1_alg».proof.Proof.Gen.KernelIdeal.Points
import proofs.«114637_j43250320670761_1_alg».proof.Proof.Gen.KernelIdeal.Frame
import proofs.«114637_j43250320670761_1_alg».proof.Proof.Gen.ReferenceIdeal
import proofs.«114637_j43250320670761_1_alg».proof.Proof.Gen.ReferenceIdeal.Run
import proofs.«114637_j43250320670761_1_alg».proof.Proof.Gen.ReferenceIdeal.Read
import proofs.«114637_j43250320670761_1_alg».proof.Proof.Gen.Pre_finite_inputs
import proofs.«114637_j43250320670761_1_alg».proof.Proof.KernelValue
import proofs.«114637_j43250320670761_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments both idealized programs end with the result array at `result` of the
    arguments: the program by its run read through the three regions, the reference by its run read index by index. -/
theorem algebraic : Cert.algebraic_KernelIdeal_ReferenceIdeal := by
  intro m ρ m' ρ' _ hagree
  refine ⟨fun c => Cert.KernelIdeal.Named.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Named.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v19_eq, Cert.ReferenceIdeal.RefValue.ref_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
